-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S512x1024 : Shape := ⟨2, ![512, 1024]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S512x512 .f32) (main_arg1 : FVec F S1024x512 .f32) (main_arg2 : FVec F S512x1024 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S512x512 : Shape := ⟨2, ![512, 512]⟩
abbrev S1024x512 : Shape := ⟨2, ![1024, 512]⟩
abbrev S512x1024 : Shape := ⟨2, ![512, 1024]⟩
abbrev S512x128 : Shape := ⟨2, ![512, 128]⟩
abbrev S128x128 : Shape := ⟨2, ![128, 128]⟩
abbrev S16x128 : Shape := ⟨2, ![16, 128]⟩
abbrev S16x128x1 : Shape := ⟨3, ![16, 128, 1]⟩
abbrev S16x1x128 : Shape := ⟨3, ![16, 1, 128]⟩
abbrev S16x128x128 : Shape := ⟨3, ![16, 128, 128]⟩
abbrev S1024x128 : Shape := ⟨2, ![1024, 128]⟩

abbrev nBuf : Space → Nat
  | .hbm => 9
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1024, .f32⟩
  | .hbm, ⟨3, _⟩ => ⟨S512x512, .f32⟩
  | .hbm, ⟨4, _⟩ => ⟨S512x1024, .f32⟩
  | .hbm, ⟨5, _⟩ => ⟨S512x1024, .f32⟩
  | .hbm, ⟨6, _⟩ => ⟨S1024x512, .f32⟩
  | .hbm, ⟨7, _⟩ => ⟨S1024x512, .f32⟩
  | .hbm, ⟨8, _⟩ => ⟨S512x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x128, .f32⟩
  | .local _ .vmem, ⟨11, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v6 : BitVec 32 := Scalar.muli arg5 c16_i32
  v6
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v6 : BitVec 32 := Scalar.muli arg5 c16_i32
  let v7 : BitVec 32 := v6
  let v8 : Index := Scalar.indexCast v7
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

@[reducible] def k1_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c16_i32 : BitVec 32 := 16#32
  let v6 : BitVec 32 := Scalar.muli arg5 c16_i32
  v6
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c16_i32 : BitVec 32 := 16#32
  let v6 : BitVec 32 := Scalar.muli arg5 c16_i32
  let v7 : BitVec 32 := v6
  let v8 : Index := Scalar.indexCast v7
  let c0_3 : Index := 0#32
  ![v8.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S512x512_S512x512_1_0 : S512x512.Transposes [1, 0] S512x512
  transposes_S1024x512_S512x1024_1_0 : S1024x512.Transposes [1, 0] S512x1024
  h_S16x128 : 0 < S16x128.numel
  shapeCasts_S16x128_S16x128 : S16x128.ShapeCasts S16x128
  shapeCasts_S16x128_S16x128x1 : S16x128.ShapeCasts S16x128x1
  shapeCasts_S16x128_S16x1x128 : S16x128.ShapeCasts S16x1x128
  broadcasts_S16x128x1_S16x128x128 : S16x128x1.Broadcasts S16x128x128
  broadcasts_S16x1x128_S16x128x128 : S16x1x128.Broadcasts S16x128x128
  reduces_S16x128x128_S128x128 : S16x128x128.Reduces [0] S128x128
  inb_S128x128_S128x128_0_0 : ∀ a, (![0, 0] : Fin 2 → Nat) a + S128x128.size a ≤ S128x128.size a
  h_S128x128 : 0 < S128x128.numel
  transposes_S512x1024_S1024x512_1_0 : S512x1024.Transposes [1, 0] S1024x512
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x128.size a ≤ S512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x512.size a
  hwx0_0 : ∀ i : grid0.Coords, EltTy.bits .f32 = 32 ∨ (Rect.block (s := S512x512) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x1024.size a
  hwx0_1 : ∀ i : grid0.Coords, EltTy.bits .f32 = 32 ∨ (Rect.block (s := S512x1024) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x1024.size a
  hwx0_2 : ∀ i : grid0.Coords, EltTy.bits .f32 = 32 ∨ (Rect.block (s := S512x1024) S128x128.size (cc0_transform_2 i) (hinb0_2 i)).WholeWords (EltTy.packing .f32)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S16x128.size a ≤ S1024x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x512.size a
  hwx1_0 : ∀ i : grid1.Coords, EltTy.bits .f32 = 32 ∨ (Rect.block (s := S1024x512) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x512.size a
  hwx1_1 : ∀ i : grid1.Coords, EltTy.bits .f32 = 32 ∨ (Rect.block (s := S1024x512) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x512.size a
  hwx1_2 : ∀ i : grid1.Coords, EltTy.bits .f32 = 32 ∨ (Rect.block (s := S512x512) S128x128.size (cc1_transform_2 i) (hinb1_2 i)).WholeWords (EltTy.packing .f32)

variable [Facts₀]

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512 : Shape := ⟨2, ![512, 512]⟩
abbrev S1024x512 : Shape := ⟨2, ![1024, 512]⟩
abbrev S512x1024 : Shape := ⟨2, ![512, 1024]⟩
abbrev S512x1x512 : Shape := ⟨3, ![512, 1, 512]⟩
abbrev S1x1024x512 : Shape := ⟨3, ![1, 1024, 512]⟩
abbrev S512x1024x512 : Shape := ⟨3, ![512, 1024, 512]⟩
abbrev S_ : Shape := ⟨0, ![]⟩
abbrev S512x1x1024 : Shape := ⟨3, ![512, 1, 1024]⟩
abbrev S1x512x1024 : Shape := ⟨3, ![1, 512, 1024]⟩
abbrev S512x512x1024 : Shape := ⟨3, ![512, 512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S512x1024, .f32⟩
  | .hbm, ⟨3, _⟩ => ⟨S512x1x512, .f32⟩
  | .hbm, ⟨4, _⟩ => ⟨S1x1024x512, .f32⟩
  | .hbm, ⟨5, _⟩ => ⟨S512x1024x512, .f32⟩
  | .hbm, ⟨6, _⟩ => ⟨S512x1024x512, .f32⟩
  | .hbm, ⟨7, _⟩ => ⟨S512x1024x512, .f32⟩
  | .hbm, ⟨8, _⟩ => ⟨S_, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1x1024, .f32⟩
  | .hbm, ⟨14, _⟩ => ⟨S1x512x1024, .f32⟩
  | .hbm, ⟨15, _⟩ => ⟨S512x512x1024, .f32⟩
  | .hbm, ⟨16, _⟩ => ⟨S512x512x1024, .f32⟩
  | .hbm, ⟨17, _⟩ => ⟨S512x512x1024, .f32⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_call1_cst : Ref sig .tc := ⟨.hbm, 20, rfl⟩
abbrev main_call1_v0 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S1024x512_S1x1024x512_1_2 : S1024x512.BroadcastsInDim S1x1024x512 (![1, 2] : Fin 2 → Fin S1x1024x512.rank)
  bcast_S512x1x512_S512x1024x512_0_1_2 : S512x1x512.BroadcastsInDim S512x1024x512 (![0, 1, 2] : Fin 3 → Fin S512x1024x512.rank)
  bcast_S1x1024x512_S512x1024x512_0_1_2 : S1x1024x512.BroadcastsInDim S512x1024x512 (![0, 1, 2] : Fin 3 → Fin S512x1024x512.rank)
  reducesTo_S512x1024x512_S512x1024_d2 : S512x1024x512.ReducesTo [2] S512x1024
  h_S_ : 0 < S_.numel
  bcast_S_S512x1024 : S_.BroadcastsInDim S512x1024 (![] : Fin 0 → Fin S512x1024.rank)
  bcast_S512x1024_S512x1x1024_0_2 : S512x1024.BroadcastsInDim S512x1x1024 (![0, 2] : Fin 2 → Fin S512x1x1024.rank)
  bcast_S512x1024_S1x512x1024_1_2 : S512x1024.BroadcastsInDim S1x512x1024 (![1, 2] : Fin 2 → Fin S1x512x1024.rank)
  bcast_S512x1x1024_S512x512x1024_0_1_2 : S512x1x1024.BroadcastsInDim S512x512x1024 (![0, 1, 2] : Fin 3 → Fin S512x512x1024.rank)
  bcast_S1x512x1024_S512x512x1024_0_1_2 : S1x512x1024.BroadcastsInDim S512x512x1024 (![0, 1, 2] : Fin 3 → Fin S512x512x1024.rank)
  reducesTo_S512x512x1024_S512x512_d2 : S512x512x1024.ReducesTo [2] S512x512
  bcast_S_S512x512 : S_.BroadcastsInDim S512x512 (![] : Fin 0 → Fin S512x512.rank)

variable [Facts₀]

class Facts : Prop extends Facts₀ where

variable [Facts]
-- ==== Proof.MaxPlus.lean ====
/-
  A max-plus layer with a ReLU on the extended reals, and the one law the certificate needs of it.

  For `X : [B, K]` and `W : [J, K]` the layer's entry `(b, j)` is
      max ( max_k ( X[b, k] + W[j, k] ) , 0 ),
  the inner maximum a fold of `max` over `k : Fin K` started from the word of `-∞`. The start value and the threshold
  are kept as the words the programs write (`ninf`, `zero`); nothing here depends on what they denote, so the
  statements hold for every start value: `max` is associative, commutative and idempotent, and that is all that is used.

  The law (`fold_chunks`, `colfold_chunks`): a running maximum that is fed the axis `C` entries at a time — each step
  the maximum of the value so far and the fold over the next `C` entries, itself started from the same start value —
  ends, after `T` steps, at the fold over all `C · T` entries. Two elements of a linear order are equal when they have
  the same upper bounds, and an upper bound of a fold of `max` is an upper bound of the start value and of every entry.
-/
import Idealize.ShloMosaic.Lib.ValueIdx
import Idealize.ShloMosaic.PureOps.Ideal.Laws

noncomputable section

namespace Cert.MaxPlus

open Idealize.ShloMosaic Idealize.ShloMosaic.ValueIdx

/-- The word the reductions start from (f32's `-∞`), as the extended real it denotes. -/
abbrev ninf : EReal := Ideal.ofBits .f32 0xFF800000#32
/-- The ReLU's threshold (the zero word), as the extended real it denotes. -/
abbrev zero : EReal := Ideal.ofBits .f32 0x00000000#32

/-- Entry `(b, j)` of the layer: the maximum over `k` of `X[b, k] + W[j, k]`, then the ReLU. -/
def layerAt {B J K : ℕ} (X : FVec Ideal ⟨2, ![B, K]⟩ .f32) (W : FVec Ideal ⟨2, ![J, K]⟩ .f32) (b : Fin B) (j : Fin J) : EReal :=
  max ((Finset.univ : Finset (Fin K)).fold max ninf (fun k => X (ix2 b k) + W (ix2 j k))) zero

/-- The layer as an array `[B, J]`. -/
def layer {B J K : ℕ} (X : FVec Ideal ⟨2, ![B, K]⟩ .f32) (W : FVec Ideal ⟨2, ![J, K]⟩ .f32) : FVec Ideal ⟨2, ![B, J]⟩ .f32 :=
  fun i => layerAt X W (i 0) (i 1)

theorem layer_ix2 {B J K : ℕ} (X : FVec Ideal ⟨2, ![B, K]⟩ .f32) (W : FVec Ideal ⟨2, ![J, K]⟩ .f32) (b : Fin B) (j : Fin J) :
    layer X W (ix2 b j) = layerAt X W b j := rfl

/-- The two layers of the network: the layer of `X` and `W₁`, and the layer of that and `W₂`. -/
def twoLayers {B I H O : ℕ} (X : FVec Ideal ⟨2, ![B, I]⟩ .f32) (W₁ : FVec Ideal ⟨2, ![H, I]⟩ .f32) (W₂ : FVec Ideal ⟨2, ![O, H]⟩ .f32) :
    FVec Ideal ⟨2, ![B, O]⟩ .f32 :=
  layer (layer X W₁) W₂

/-- The same layer from the TRANSPOSED operands `Xt : [K, B]`, `Wt : [K, J]` (the reduction axis leading), entry `(b, j)`:
    the maximum over `k` of `Xt[k, b] + Wt[k, j]`, then the ReLU. -/
def colLayerAt {K B J : ℕ} (Xt : FVec Ideal ⟨2, ![K, B]⟩ .f32) (Wt : FVec Ideal ⟨2, ![K, J]⟩ .f32) (b : Fin B) (j : Fin J) : EReal :=
  max ((Finset.univ : Finset (Fin K)).fold max ninf (fun k => Xt (ix2 k b) + Wt (ix2 k j))) zero

/-- and as an array `[B, J]`. -/
def colLayer {K B J : ℕ} (Xt : FVec Ideal ⟨2, ![K, B]⟩ .f32) (Wt : FVec Ideal ⟨2, ![K, J]⟩ .f32) : FVec Ideal ⟨2, ![B, J]⟩ .f32 :=
  fun i => colLayerAt Xt Wt (i 0) (i 1)

/-- From the transposes of `X` and `W` it is the layer of `X` and `W`. -/
theorem colLayer_eq_layer {K B J : ℕ} (Xt : FVec Ideal ⟨2, ![K, B]⟩ .f32) (Wt : FVec Ideal ⟨2, ![K, J]⟩ .f32)
    (X : FVec Ideal ⟨2, ![B, K]⟩ .f32) (W : FVec Ideal ⟨2, ![J, K]⟩ .f32)
    (hx : ∀ k b, Xt (ix2 k b) = X (ix2 b k)) (hw : ∀ k j, Wt (ix2 k j) = W (ix2 j k)) : colLayer Xt Wt = layer X W := by
  funext i
  obtain ⟨b, j, rfl⟩ : ∃ (b : Fin B) (j : Fin J), i = ix2 b j := ⟨i 0, i 1, eq_ix2 i⟩
  show colLayerAt Xt Wt b j = layerAt X W b j
  unfold colLayerAt layerAt
  simp only [hx, hw]

/-- A running maximum fed `C` entries of `g` at a time, each step folding its `C` entries from the start value `s`,
    is after `T` steps the fold of `max` from `s` over the first `C · T` entries. -/
theorem fold_chunks (C T : ℕ) (s : EReal) (g : ℕ → EReal) (a : ℕ → EReal) (h0 : a 0 = s)
    (hs : ∀ n, n < T → a (n + 1) = max (a n) ((Finset.univ : Finset (Fin C)).fold max s (fun c => g (C * n + c.val)))) :
    a T = (Finset.univ : Finset (Fin (C * T))).fold max s (fun k => g k.val) := by
  have key : ∀ n, n ≤ T → ∀ ub : EReal, a n ≤ ub ↔ s ≤ ub ∧ ∀ r, r < C * n → g r ≤ ub := by
    intro n
    induction n with
    | zero =>
      intro _ ub
      rw [h0]
      exact ⟨fun h => ⟨h, fun r hr => absurd hr (by simp)⟩, fun h => h.1⟩
    | succ n ih =>
      intro hn ub
      rw [hs n (by omega), max_le_iff, ih (by omega), Finset.fold_max_le]
      constructor
      · rintro ⟨⟨hb, h1⟩, -, h2⟩
        refine ⟨hb, fun r hr => ?_⟩
        rw [Nat.mul_succ] at hr
        by_cases hlt : r < C * n
        · exact h1 r hlt
        · have hc : r - C * n < C := by omega
          have hr' : r = C * n + (r - C * n) := by omega
          rw [hr']
          exact h2 ⟨r - C * n, hc⟩ (Finset.mem_univ _)
      · rintro ⟨hb, h⟩
        refine ⟨⟨hb, fun r hr => h r (by rw [Nat.mul_succ]; omega)⟩, hb, fun c _ => h _ ?_⟩
        rw [Nat.mul_succ]
        have := c.isLt
        omega
  refine eq_of_forall_ge_iff fun ub => ?_
  rw [key T le_rfl ub, Finset.fold_max_le]
  constructor
  · rintro ⟨hb, h⟩
    exact ⟨hb, fun k _ => h k.val k.isLt⟩
  · rintro ⟨hb, h⟩
    exact ⟨hb, fun r hr => h ⟨r, hr⟩ (Finset.mem_univ _)⟩

/-- Row `C · n + c` of chunk `n` lies on an axis of `C · T` entries. -/
theorem chunk_lt {C T K : ℕ} (hK : C * T = K) {n : ℕ} (hn : n < T) (c : Fin C) : C * n + c.val < K := by
  have h1 : C * (n + 1) ≤ C * T := Nat.mul_le_mul_left C hn
  rw [Nat.mul_succ] at h1
  have := c.isLt
  omega

/-- The same for a sum of two columns over an axis of `K = C · T` rows: the running maximum of the chunks' maxima of
    `xs r + ws r` is the maximum over all rows. -/
theorem colfold_chunks {K : ℕ} (C T : ℕ) (hK : C * T = K) (xs ws : Fin K → EReal) (a : ℕ → EReal) (h0 : a 0 = ninf)
    (hs : ∀ n (hn : n < T), a (n + 1) = max (a n) ((Finset.univ : Finset (Fin C)).fold max ninf
      (fun c => xs ⟨C * n + c.val, chunk_lt hK hn c⟩ + ws ⟨C * n + c.val, chunk_lt hK hn c⟩))) :
    a T = (Finset.univ : Finset (Fin K)).fold max ninf (fun k => xs k + ws k) := by
  subst hK
  have h := fold_chunks C T ninf (fun r => if h : r < C * T then xs ⟨r, h⟩ + ws ⟨r, h⟩ else ninf) a h0 (fun n hn => by
    rw [hs n hn]
    refine congrArg (max (a n)) (congrArg (fun f => Finset.fold max ninf f (Finset.univ : Finset (Fin C))) (funext fun c => ?_))
    rw [dif_pos (chunk_lt rfl hn c)])
  rw [h]
  refine congrArg (fun f => Finset.fold max ninf f (Finset.univ : Finset (Fin (C * T)))) (funext fun k => ?_)
  rw [dif_pos k.isLt]

end Cert.MaxPlus

end
-- ==== Proof.Chunk.lean ====
/-
  One step of the kernels' reduction loop, read at an entry of the extended reals.

  A step takes the running maximum `acc : [128, 128]` and two loaded slabs `xs, ws : [16, 128]` (sixteen rows of the
  transposed left operand's block and of the transposed weights' block). It forms `s[c, p, q] = xs[c, p] + ws[c, q]`
  — each slab given a unit axis and broadcast along it — takes the maximum over the leading axis `c` from the word of
  `-∞`, and returns the maximum of that and `acc`. At `(p, q)` this is
      max ( acc[p, q] , max_c ( xs[c, p] + ws[c, q] ) ),
  the inner maximum a fold of `max` over `c : Fin 16` from the start word. The two layout steps are read at an index
  (a cast that adds a unit axis keeps the row-major position; a broadcast along a unit axis reads coordinate 0 there),
  the reduction by the library's reading of a one-axis maximum as a fold over that axis's coordinates.
-/
import Idealize.ShloMosaic.Lib.ValueIdx
import Idealize.ShloMosaic.Lib.Pipeline.Value
import Idealize.ShloMosaic.PureOps.Ideal.Laws
import proofs.«162019_j32392643346992_2_alg».proof.Proof.MaxPlus

noncomputable section

namespace Cert.MaxPlus

open Idealize.ShloMosaic Idealize.ShloMosaic.ValueIdx

/-- A `[16, 128]` slab given a trailing unit axis and broadcast along it, at `(c, p, q)`: the slab at `(c, p)`. -/
theorem slab_rows_apply {α : Type} (v : (⟨2, ![16, 128]⟩ : Shape).Idx → α)
    (h14 : (⟨2, ![16, 128]⟩ : Shape).ShapeCasts ⟨3, ![16, 128, 1]⟩)
    (h16 : (⟨3, ![16, 128, 1]⟩ : Shape).Broadcasts ⟨3, ![16, 128, 128]⟩) (c : Fin 16) (p q : Fin 128) :
    broadcastTo ⟨3, ![16, 128, 128]⟩ (shapeCast ⟨3, ![16, 128, 1]⟩ v h14) h16 (ix3 c p q) = v (ix2 c p) := by
  rw [broadcastTo_apply _ h16 (ix3 c p q) (ix3 c p (0 : Fin 1)) (fun a => match a with
    | ⟨0, _⟩ => by show c.val = if (16 : Nat) = 1 then 0 else c.val; rw [if_neg (by decide)]
    | ⟨1, _⟩ => by show p.val = if (128 : Nat) = 1 then 0 else p.val; rw [if_neg (by decide)]
    | ⟨2, _⟩ => by show 0 = if (1 : Nat) = 1 then 0 else q.val; rw [if_pos rfl])]
  exact shapeCast_apply v h14 (ix3 c p (0 : Fin 1)) (ix2 c p) (by
    rw [Shape.rowMajor_val_two, Shape.rowMajor_val_three]
    show c.val * 128 + p.val = (c.val * 128 + p.val) * 1 + 0
    omega)

/-- A `[16, 128]` slab given a middle unit axis and broadcast along it, at `(c, p, q)`: the slab at `(c, q)`. -/
theorem slab_cols_apply {α : Type} (v : (⟨2, ![16, 128]⟩ : Shape).Idx → α)
    (h15 : (⟨2, ![16, 128]⟩ : Shape).ShapeCasts ⟨3, ![16, 1, 128]⟩)
    (h17 : (⟨3, ![16, 1, 128]⟩ : Shape).Broadcasts ⟨3, ![16, 128, 128]⟩) (c : Fin 16) (p q : Fin 128) :
    broadcastTo ⟨3, ![16, 128, 128]⟩ (shapeCast ⟨3, ![16, 1, 128]⟩ v h15) h17 (ix3 c p q) = v (ix2 c q) := by
  rw [broadcastTo_apply _ h17 (ix3 c p q) (ix3 c (0 : Fin 1) q) (fun a => match a with
    | ⟨0, _⟩ => by show c.val = if (16 : Nat) = 1 then 0 else c.val; rw [if_neg (by decide)]
    | ⟨1, _⟩ => by show 0 = if (1 : Nat) = 1 then 0 else p.val; rw [if_pos rfl]
    | ⟨2, _⟩ => by show q.val = if (128 : Nat) = 1 then 0 else q.val; rw [if_neg (by decide)])]
  exact shapeCast_apply v h15 (ix3 c (0 : Fin 1) q) (ix2 c q) (by
    rw [Shape.rowMajor_val_two, Shape.rowMajor_val_three]
    show c.val * 128 + q.val = (c.val * 1 + 0) * 128 + q.val
    omega)

/-- THE STEP at `(p, q)`: the maximum of the running value there and of `xs[c, p] + ws[c, q]` over the sixteen rows. -/
theorem step_apply (acc : FVec Ideal ⟨2, ![128, 128]⟩ .f32) (xs ws : FVec Ideal ⟨2, ![16, 128]⟩ .f32)
    (h10 h13 : (⟨2, ![16, 128]⟩ : Shape).ShapeCasts ⟨2, ![16, 128]⟩)
    (h14 : (⟨2, ![16, 128]⟩ : Shape).ShapeCasts ⟨3, ![16, 128, 1]⟩)
    (h15 : (⟨2, ![16, 128]⟩ : Shape).ShapeCasts ⟨3, ![16, 1, 128]⟩)
    (h16 : (⟨3, ![16, 128, 1]⟩ : Shape).Broadcasts ⟨3, ![16, 128, 128]⟩)
    (h17 : (⟨3, ![16, 1, 128]⟩ : Shape).Broadcasts ⟨3, ![16, 128, 128]⟩)
    (hr : (⟨3, ![16, 128, 128]⟩ : Shape).Reduces [0] ⟨2, ![128, 128]⟩)
    (hφ : FKind.Formats .f32) (hacc : (0xFF800000#32 : BitVec 32) = FKind.maximumf.neutral .f32 hφ) (p q : Fin 128) :
    maximumf acc (multiReduction .maximumf [0] ⟨2, ![128, 128]⟩
        (addf (broadcastTo ⟨3, ![16, 128, 128]⟩ (shapeCast ⟨3, ![16, 128, 1]⟩ (shapeCast ⟨2, ![16, 128]⟩ xs h10) h14) h16)
          (broadcastTo ⟨3, ![16, 128, 128]⟩ (shapeCast ⟨3, ![16, 1, 128]⟩ (shapeCast ⟨2, ![16, 128]⟩ ws h13) h15) h17))
        0xFF800000#32 hr hφ hacc) (ix2 p q)
      = max (acc (ix2 p q)) ((Finset.univ : Finset (Fin 16)).fold max ninf (fun c => xs (ix2 c p) + ws (ix2 c q))) := by
  rw [shapeCast_self xs h10, shapeCast_self ws h13]
  refine congrArg (max (acc (ix2 p q))) ?_
  refine (Ideal.multiReduction_maximumf_single _ _ hr hφ hacc (ix2 p q)).trans ?_
  show (Finset.univ : Finset (Fin 16)).fold max ninf _ = _
  refine congrArg (fun f => Finset.fold max ninf f (Finset.univ : Finset (Fin 16))) (funext fun (c : Fin 16) => ?_)
  have hl : hr.lift (ix2 p q) c = ix3 c p q := funext fun a => match a with
    | ⟨0, _⟩ => Fin.ext rfl
    | ⟨1, _⟩ => Fin.ext rfl
    | ⟨2, _⟩ => Fin.ext rfl
  show addf _ _ (hr.lift (ix2 p q) c) = _
  rw [hl]
  show _ + _ = _
  rw [slab_rows_apply, slab_cols_apply]

end Cert.MaxPlus

end
-- ==== Proof.Body0.lean ====
/-
  What one grid point of the first layer's kernel leaves in its output block, at an entry of the extended reals.

  The body carries a running maximum `[128, 128]` through a counted loop of 32 steps. Step `k` loads rows
  `16k … 16k + 15` of the point's two staged blocks `x0, x1 : [512, 128]` (the transposed left operand's columns of
  the point, the transposed weights' columns of the point) and replaces the running value by the maximum of itself and
  of `x0[r, p] + x1[r, q]` over those sixteen rows; the loop starts from the word of `-∞`, and after it the body stores
  the maximum of the running value and the zero word. So the block ends, at `(p, q)`, at
      max ( max_{r < 512} ( x0[r, p] + x1[r, q] ) , 0 ):
  the step is `MaxPlus.step_apply`, the load a read of `x0` at the rows the step's offset names, and the 32 steps
  together the fold over all 512 rows by `MaxPlus.colfold_chunks`.
-/
import proofs.«162019_j32392643346992_2_alg».proof.Proof.Gen.KernelIdeal.Frame
import proofs.«162019_j32392643346992_2_alg».proof.Proof.Chunk

noncomputable section

namespace Cert.KernelIdeal.Body0

open Cert.KernelIdeal Cert.KernelIdeal.Gen Cert.MaxPlus
open Idealize.ShloMosaic Idealize.ShloMosaic.TcCoe Idealize.ShloMosaic.ValueIdx
open Idealize.SL Idealize.SL.Sem

variable (c : Dev nD) (i : grid0.Coords) (arg2 : Memref sig .tc .vmem S512x128 .f32) (harg2 : arg2.IsWhole)
  (arg3 : Memref sig .tc .vmem S512x128 .f32) (harg3 : arg3.IsWhole) (arg4 : Memref sig .tc .vmem S128x128 .f32) (harg4 : arg4.IsWhole)

/-- The loop runs 32 steps. -/
theorem trips_eq : k0_t1_loop.trips = 32 := by decide

/-- What step `k` yields from the running value `acc`: the step's arithmetic of `acc` and the two slabs it loads. -/
theorem trip_eq (𝒱 : Variants) (bd : Option 𝒱.V) (X2 : BufTy.Contents (Elt Ideal) arg2.view.ty) (X3 : BufTy.Contents (Elt Ideal) arg3.view.ty)
    (k : Fin k0_t1_loop.trips) (acc : FVec Ideal S128x128 .f32) :
    tripR_k0_t1 (F := Ideal) 𝒱 c bd i arg2 harg2 arg3 harg3 arg4 harg4 X2 X3 k acc
      = k0_pay2 acc (View.readAt (Elt Ideal) arg2.view (Rect.unit (s := S512x128) (k0_off1 k) S16x128.size (k0_off1_inb k)).toLoadRect X2)
          (View.readAt (Elt Ideal) arg3.view (Rect.unit (s := S512x128) (k0_off1 k) S16x128.size (k0_off1_inb k)).toLoadRect X3) := by
  unfold tripR_k0_t1 trip_k0_t1
  rfl

/-- The slab step `k` loads from a staged block holding `x`, at `(r, p)`: row `16k + r` of `x`. -/
theorem load_apply (m : Memref sig .tc .vmem S512x128 .f32) (hm : m.IsWhole) (x : Vec Ideal S512x128 .f32)
    (k : Fin k0_t1_loop.trips) (r : Fin 16) (p : Fin 128) (hlt : 16 * k.val + r.val < 512) :
    View.readAt (Elt Ideal) m.view (Rect.unit (s := S512x128) (k0_off1 k) S16x128.size (k0_off1_inb k)).toLoadRect (hm.unread x) (ix2 r p)
      = x (ix2 ⟨16 * k.val + r.val, hlt⟩ p) := by
  rw [View.readAt_eq_ld, hm.read_unread]
  show x _ = x _
  refine congrArg x (funext fun a => Fin.ext ?_)
  match a with
  | ⟨0, _⟩ =>
    show k0_off1 k 0 + 1 * r.val = 16 * k.val + r.val
    rw [k0_off1_eq k]
    show 16 * k.val + 1 * r.val = 16 * k.val + r.val
    omega
  | ⟨1, _⟩ =>
    show k0_off1 k 1 + 1 * p.val = p.val
    rw [k0_off1_eq k]
    show 0 + 1 * p.val = p.val
    omega

/-- Step `k` on staged blocks holding `x0`, `x1`, at `(p, q)`: the maximum of the running value there and of
    `x0[16k + r, p] + x1[16k + r, q]` over the sixteen rows `r`. -/
theorem trip_apply (x0 x1 : Vec Ideal S512x128 .f32) (k : Fin k0_t1_loop.trips) (hk : k.val < 32) (acc : FVec Ideal S128x128 .f32) (p q : Fin 128) :
    tripR_k0_t1 (F := Ideal) Variants.none c none i arg2 harg2 arg3 harg3 arg4 harg4 (harg2.unread x0) (harg3.unread x1) k acc (ix2 p q)
      = max (acc (ix2 p q)) ((Finset.univ : Finset (Fin 16)).fold max ninf
          (fun r => x0 (ix2 ⟨16 * k.val + r.val, chunk_lt (C := 16) (T := 32) (K := 512) rfl hk r⟩ p)
            + x1 (ix2 ⟨16 * k.val + r.val, chunk_lt (C := 16) (T := 32) (K := 512) rfl hk r⟩ q))) := by
  rw [trip_eq]
  unfold k0_pay2
  refine (step_apply acc _ _ _ _ _ _ _ _ _ (.inl rfl) rfl p q).trans ?_
  refine congrArg (max (acc (ix2 p q))) (congrArg (fun f => Finset.fold max ninf f (Finset.univ : Finset (Fin 16))) (funext fun (r : Fin 16) => ?_))
  rw [load_apply arg2 harg2 x0 k r p (chunk_lt (C := 16) (T := 32) (K := 512) rfl hk r),
    load_apply arg3 harg3 x1 k r q (chunk_lt (C := 16) (T := 32) (K := 512) rfl hk r)]

/-- The running value before step `n`, on staged blocks holding `x0`, `x1`. -/
abbrev carried (x0 x1 : Vec Ideal S512x128 .f32) (n : ℕ) : FVec Ideal S128x128 .f32 :=
  st_k0_t1 (F := Ideal) Variants.none c none i arg2 harg2 arg3 harg3 arg4 harg4 (harg2.unread x0) (harg3.unread x1) (k0_pay1 (F := Ideal)) n

/-- After the 32 steps the running value at `(p, q)` is the maximum of `x0[r, p] + x1[r, q]` over all 512 rows. -/
theorem carried_final (x0 x1 : Vec Ideal S512x128 .f32) (p q : Fin 128) :
    carried c i arg2 harg2 arg3 harg3 arg4 harg4 x0 x1 32 (ix2 p q)
      = (Finset.univ : Finset (Fin 512)).fold max ninf (fun k => x0 (ix2 k p) + x1 (ix2 k q)) := by
  refine colfold_chunks 16 32 rfl (fun r => x0 (ix2 r p)) (fun r => x1 (ix2 r q))
    (fun n => carried c i arg2 harg2 arg3 harg3 arg4 harg4 x0 x1 n (ix2 p q)) rfl (fun n hn => ?_)
  have hn' : n < k0_t1_loop.trips := by rw [trips_eq]; exact hn
  exact (congrFun (st_k0_t1_succ (F := Ideal) Variants.none c none i arg2 harg2 arg3 harg3 arg4 harg4 (harg2.unread x0) (harg3.unread x1)
      (k0_pay1 (F := Ideal)) ⟨n, hn'⟩) (ix2 p q)).trans
    (trip_apply c i arg2 harg2 arg3 harg3 arg4 harg4 x0 x1 ⟨n, hn'⟩ hn _ p q)

theorem zeros : (![0, 0] : Fin 2 → Nat) = fun _ => 0 := funext fun a => by fin_cases a <;> rfl

/-- The body's one store: the whole block, the ReLU of the running value after the loop. -/
theorem pieces_eq (x0 x1 : Vec Ideal S512x128 .f32) :
    (kernelRun0_A (F := Ideal) c i arg2 harg2 arg3 harg3 arg4 harg4 x0 x1).1
      = [⟨Rect.unit (s := S128x128) ![0, 0] S128x128.size inb_S128x128_S128x128_0_0,
          k0_pay3 (carried c i arg2 harg2 arg3 harg3 arg4 harg4 x0 x1 k0_t1_loop.trips)⟩] := by
  unfold kernelRun0_A
  rfl

/-- WHAT THE POINT LEAVES in its output block, at `(p, q)`: the layer's entry of the two staged blocks. -/
theorem out_apply (x0 x1 : Vec Ideal S512x128 .f32) (p q : Fin 128) :
    out0_A_2 (F := Ideal) c i arg2 harg2 arg3 harg3 arg4 harg4 x0 x1 (ix2 p q)
      = max ((Finset.univ : Finset (Fin 512)).fold max ninf (fun k => x0 (ix2 k p) + x1 (ix2 k q))) zero := by
  unfold out0_A_2
  rw [View.read_writes_eq_canon _ _ _ (cover0_A_2 c i arg2 harg2 arg3 harg3 arg4 harg4 x0 x1), pieces_eq, View.canon_unit_zero zeros,
    trips_eq]
  show max (carried c i arg2 harg2 arg3 harg3 arg4 harg4 x0 x1 32 (ix2 p q)) zero = _
  rw [carried_final]

end Cert.KernelIdeal.Body0

end
-- ==== Proof.Region0.lean ====
/-
  From the first kernel's blocks to its whole result array.

  The first pallas_call runs over a 4 × 8 grid. At point `(bi, ji)` it stages columns `128·bi …` of the transposed
  left operand `Xt : [512, 512]` (all 512 rows), columns `128·ji …` of the transposed weights `Wt : [512, 1024]`, and
  writes back block `(bi, ji)` of the result `[512, 1024]`. By `Body0.out_apply` the block written holds, at `(p, q)`,
  the layer's entry of the two staged blocks, and entry `(r, p)` of a staged block is entry `(r, 128·bi + p)` of its
  array: so what the point writes back is block `(bi, ji)` of ONE whole-array function, the layer of `Xt` and `Wt`
  in its column form (`MaxPlus.colLayer`). The 32 blocks tile the result, so the array ends holding that function.
-/
import proofs.«162019_j32392643346992_2_alg».proof.Proof.Gen.KernelIdeal.Frame
import proofs.«162019_j32392643346992_2_alg».proof.Proof.Body0
import Idealize.ShloMosaic.Lib.Pipeline.Value

set_option maxRecDepth 16384

noncomputable section

namespace Cert.KernelIdeal.Region0

open Cert.KernelIdeal Cert.KernelIdeal.Gen Cert.MaxPlus
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- What the body leaves at an index `y` of the output block, for staged blocks holding `x0`, `x1`. -/
theorem out_at (c : Dev nD) (i : grid0.Coords) (arg2 : Memref sig .tc .vmem S512x128 .f32) (harg2 : arg2.IsWhole)
    (arg3 : Memref sig .tc .vmem S512x128 .f32) (harg3 : arg3.IsWhole) (arg4 : Memref sig .tc .vmem S128x128 .f32) (harg4 : arg4.IsWhole)
    (x0 x1 : Vec Ideal S512x128 .f32) (y : S128x128.Idx) :
    out0_A_2 (F := Ideal) c i arg2 harg2 arg3 harg3 arg4 harg4 x0 x1 y
      = max ((Finset.univ : Finset (Fin 512)).fold max ninf (fun k => x0 (ix2 k (y 0)) + x1 (ix2 k (y 1)))) zero := by
  obtain ⟨p, q, rfl⟩ : ∃ (p q : Fin 128), y = ix2 p q := ⟨y 0, y 1, eq_ix2 y⟩
  exact Body0.out_apply c i arg2 harg2 arg3 harg3 arg4 harg4 x0 x1 p q

/-- The printed index maps over the grid: the left operand's block is at block column `bi`, the weights' at block column
    `ji`, both at block row 0, and the result's block is `(bi, ji)`, inside the 4 × 8 blocks of the result. -/
theorem index_facts : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block of the result is some point's. -/
theorem index_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- WHAT POINT `t` WRITES BACK is block `t` of the layer of the two operand arrays as the region finds them. -/
theorem flushed_eq (c : Dev nD) (t : Fin cfg0.N) :
    (dat0 V c).flushed 2 t = ((cfg0.win 2).blk t).view.read (Elt Ideal)
      (colLayer (K := 512) (B := 512) (J := 1024) (V c main_v0) (V c main_v1)) := by
  show (cfg0.win 2).cut (grid0.coords t) ((dat0 V c).after 2 t) = _
  rw [after0_2]
  unfold outsAt0
  obtain ⟨e0, e1, e2, e3, e4, e5⟩ := index_facts t
  funext y
  refine (out_at c (grid0.coords t) (ms0_0 t) (hs0_0 t) (ms0_1 t) (hs0_1 t) (ms0_2 t) (hs0_2 t) (iblk0 V c 0 t) (iblk0 V c 1 t) y).trans ?_
  show _ = colLayerAt (K := 512) (B := 512) (J := 1024) (V c main_v0) (V c main_v1) ((((cfg0.win 2).blk t).view.emb y) 0) ((((cfg0.win 2).blk t).view.emb y) 1)
  unfold colLayerAt
  refine congrArg (fun z => max z zero) (congrArg (fun f => Finset.fold max ninf f (Finset.univ : Finset (Fin 512))) (funext fun (k : Fin 512) => ?_))
  have h0 : iblk0 V c 0 t (ix2 k (y 0)) = V c main_v0 (ix2 k ((((cfg0.win 2).blk t).view.emb y) 0)) := by
    show V c main_v0 (((cfg0.win 0).blk t).view.emb (ix2 k (y 0))) = _
    refine congrArg (V c main_v0) (funext fun a => Fin.ext ?_)
    match a with
    | ⟨0, _⟩ => show win0_0.index t (0 : Fin 2) * 512 + 1 * k.val = k.val; omega
    | ⟨1, _⟩ => show win0_0.index t (1 : Fin 2) * 128 + 1 * (y 0).val = win0_2.index t (0 : Fin 2) * 128 + 1 * (y 0).val; omega
  have h1 : iblk0 V c 1 t (ix2 k (y 1)) = V c main_v1 (ix2 k ((((cfg0.win 2).blk t).view.emb y) 1)) := by
    show V c main_v1 (((cfg0.win 1).blk t).view.emb (ix2 k (y 1))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 128 + 1 * (y 1).val = win0_2.index t (1 : Fin 2) * 128 + 1 * (y 1).val; omega
  rw [h0, h1]

/-- An index of the result is in point `t`'s block iff each coordinate is in the block's range on its axis. -/
theorem mem_block (t : Fin cfg0.N) (i : S512x1024.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v2).slice (win0_2.rect t)).set ↔ _
  rw [View.set_slice_whole, Rect.mem_set_unit]
  exact Iff.rfl

/-- Every index of the result lies in some point's block: block `(i₀ / 128, i₁ / 128)`. -/
theorem covered (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := index_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE RESULT ARRAY after the region: the layer of the two operand arrays as the region finds them. -/
theorem final (c : Dev nD) :
    (dat0 V c).arrAt 2 cfg0.N = colLayer (K := 512) (B := 512) (J := 1024) (V c main_v0) (V c main_v1) :=
  (dat0 V c).arrAt_eq_of_cover 2 _ (fun t _ => flushed_eq V c t) covered

end Cert.KernelIdeal.Region0

end
-- ==== Proof.Body1.lean ====
/-
  What one grid point of the second layer's kernel leaves in its output block, at an entry of the extended reals.

  The body carries a running maximum `[128, 128]` through a counted loop of 64 steps. Step `k` loads rows
  `16k … 16k + 15` of the point's two staged blocks `x0, x1 : [1024, 128]` (the transposed left operand's columns of
  the point, the transposed weights' columns of the point) and replaces the running value by the maximum of itself and
  of `x0[r, p] + x1[r, q]` over those sixteen rows; the loop starts from the word of `-∞`, and after it the body stores
  the maximum of the running value and the zero word. So the block ends, at `(p, q)`, at
      max ( max_{r < 1024} ( x0[r, p] + x1[r, q] ) , 0 ):
  the step is `MaxPlus.step_apply`, the load a read of `x0` at the rows the step's offset names, and the 64 steps
  together the fold over all 1024 rows by `MaxPlus.colfold_chunks`.
-/
import proofs.«162019_j32392643346992_2_alg».proof.Proof.Gen.KernelIdeal.Frame
import proofs.«162019_j32392643346992_2_alg».proof.Proof.Chunk

noncomputable section

namespace Cert.KernelIdeal.Body1

open Cert.KernelIdeal Cert.KernelIdeal.Gen Cert.MaxPlus
open Idealize.ShloMosaic Idealize.ShloMosaic.TcCoe Idealize.ShloMosaic.ValueIdx
open Idealize.SL Idealize.SL.Sem

variable (c : Dev nD) (i : grid1.Coords) (arg2 : Memref sig .tc .vmem S1024x128 .f32) (harg2 : arg2.IsWhole)
  (arg3 : Memref sig .tc .vmem S1024x128 .f32) (harg3 : arg3.IsWhole) (arg4 : Memref sig .tc .vmem S128x128 .f32) (harg4 : arg4.IsWhole)

/-- The loop runs 64 steps. -/
theorem trips_eq : k1_t1_loop.trips = 64 := by decide

/-- What step `k` yields from the running value `acc`: the step's arithmetic of `acc` and the two slabs it loads. -/
theorem trip_eq (𝒱 : Variants) (bd : Option 𝒱.V) (X2 : BufTy.Contents (Elt Ideal) arg2.view.ty) (X3 : BufTy.Contents (Elt Ideal) arg3.view.ty)
    (k : Fin k1_t1_loop.trips) (acc : FVec Ideal S128x128 .f32) :
    tripR_k1_t1 (F := Ideal) 𝒱 c bd i arg2 harg2 arg3 harg3 arg4 harg4 X2 X3 k acc
      = k1_pay2 acc (View.readAt (Elt Ideal) arg2.view (Rect.unit (s := S1024x128) (k1_off1 k) S16x128.size (k1_off1_inb k)).toLoadRect X2)
          (View.readAt (Elt Ideal) arg3.view (Rect.unit (s := S1024x128) (k1_off1 k) S16x128.size (k1_off1_inb k)).toLoadRect X3) := by
  unfold tripR_k1_t1 trip_k1_t1
  rfl

/-- The slab step `k` loads from a staged block holding `x`, at `(r, p)`: row `16k + r` of `x`. -/
theorem load_apply (m : Memref sig .tc .vmem S1024x128 .f32) (hm : m.IsWhole) (x : Vec Ideal S1024x128 .f32)
    (k : Fin k1_t1_loop.trips) (r : Fin 16) (p : Fin 128) (hlt : 16 * k.val + r.val < 1024) :
    View.readAt (Elt Ideal) m.view (Rect.unit (s := S1024x128) (k1_off1 k) S16x128.size (k1_off1_inb k)).toLoadRect (hm.unread x) (ix2 r p)
      = x (ix2 ⟨16 * k.val + r.val, hlt⟩ p) := by
  rw [View.readAt_eq_ld, hm.read_unread]
  show x _ = x _
  refine congrArg x (funext fun a => Fin.ext ?_)
  match a with
  | ⟨0, _⟩ =>
    show k1_off1 k 0 + 1 * r.val = 16 * k.val + r.val
    rw [k1_off1_eq k]
    show 16 * k.val + 1 * r.val = 16 * k.val + r.val
    omega
  | ⟨1, _⟩ =>
    show k1_off1 k 1 + 1 * p.val = p.val
    rw [k1_off1_eq k]
    show 0 + 1 * p.val = p.val
    omega

/-- Step `k` on staged blocks holding `x0`, `x1`, at `(p, q)`: the maximum of the running value there and of
    `x0[16k + r, p] + x1[16k + r, q]` over the sixteen rows `r`. -/
theorem trip_apply (x0 x1 : Vec Ideal S1024x128 .f32) (k : Fin k1_t1_loop.trips) (hk : k.val < 64) (acc : FVec Ideal S128x128 .f32) (p q : Fin 128) :
    tripR_k1_t1 (F := Ideal) Variants.none c none i arg2 harg2 arg3 harg3 arg4 harg4 (harg2.unread x0) (harg3.unread x1) k acc (ix2 p q)
      = max (acc (ix2 p q)) ((Finset.univ : Finset (Fin 16)).fold max ninf
          (fun r => x0 (ix2 ⟨16 * k.val + r.val, chunk_lt (C := 16) (T := 64) (K := 1024) rfl hk r⟩ p)
            + x1 (ix2 ⟨16 * k.val + r.val, chunk_lt (C := 16) (T := 64) (K := 1024) rfl hk r⟩ q))) := by
  rw [trip_eq]
  unfold k1_pay2
  refine (step_apply acc _ _ _ _ _ _ _ _ _ (.inl rfl) rfl p q).trans ?_
  refine congrArg (max (acc (ix2 p q))) (congrArg (fun f => Finset.fold max ninf f (Finset.univ : Finset (Fin 16))) (funext fun (r : Fin 16) => ?_))
  rw [load_apply arg2 harg2 x0 k r p (chunk_lt (C := 16) (T := 64) (K := 1024) rfl hk r),
    load_apply arg3 harg3 x1 k r q (chunk_lt (C := 16) (T := 64) (K := 1024) rfl hk r)]

/-- The running value before step `n`, on staged blocks holding `x0`, `x1`. -/
abbrev carried (x0 x1 : Vec Ideal S1024x128 .f32) (n : ℕ) : FVec Ideal S128x128 .f32 :=
  st_k1_t1 (F := Ideal) Variants.none c none i arg2 harg2 arg3 harg3 arg4 harg4 (harg2.unread x0) (harg3.unread x1) (k1_pay1 (F := Ideal)) n

/-- After the 64 steps the running value at `(p, q)` is the maximum of `x0[r, p] + x1[r, q]` over all 1024 rows. -/
theorem carried_final (x0 x1 : Vec Ideal S1024x128 .f32) (p q : Fin 128) :
    carried c i arg2 harg2 arg3 harg3 arg4 harg4 x0 x1 64 (ix2 p q)
      = (Finset.univ : Finset (Fin 1024)).fold max ninf (fun k => x0 (ix2 k p) + x1 (ix2 k q)) := by
  refine colfold_chunks 16 64 rfl (fun r => x0 (ix2 r p)) (fun r => x1 (ix2 r q))
    (fun n => carried c i arg2 harg2 arg3 harg3 arg4 harg4 x0 x1 n (ix2 p q)) rfl (fun n hn => ?_)
  have hn' : n < k1_t1_loop.trips := by rw [trips_eq]; exact hn
  exact (congrFun (st_k1_t1_succ (F := Ideal) Variants.none c none i arg2 harg2 arg3 harg3 arg4 harg4 (harg2.unread x0) (harg3.unread x1)
      (k1_pay1 (F := Ideal)) ⟨n, hn'⟩) (ix2 p q)).trans
    (trip_apply c i arg2 harg2 arg3 harg3 arg4 harg4 x0 x1 ⟨n, hn'⟩ hn _ p q)

theorem zeros : (![0, 0] : Fin 2 → Nat) = fun _ => 0 := funext fun a => by fin_cases a <;> rfl

/-- The body's one store: the whole block, the ReLU of the running value after the loop. -/
theorem pieces_eq (x0 x1 : Vec Ideal S1024x128 .f32) :
    (kernelRun1_A (F := Ideal) c i arg2 harg2 arg3 harg3 arg4 harg4 x0 x1).1
      = [⟨Rect.unit (s := S128x128) ![0, 0] S128x128.size inb_S128x128_S128x128_0_0,
          k1_pay3 (carried c i arg2 harg2 arg3 harg3 arg4 harg4 x0 x1 k1_t1_loop.trips)⟩] := by
  unfold kernelRun1_A
  rfl

/-- WHAT THE POINT LEAVES in its output block, at `(p, q)`: the layer's entry of the two staged blocks. -/
theorem out_apply (x0 x1 : Vec Ideal S1024x128 .f32) (p q : Fin 128) :
    out1_A_2 (F := Ideal) c i arg2 harg2 arg3 harg3 arg4 harg4 x0 x1 (ix2 p q)
      = max ((Finset.univ : Finset (Fin 1024)).fold max ninf (fun k => x0 (ix2 k p) + x1 (ix2 k q))) zero := by
  unfold out1_A_2
  rw [View.read_writes_eq_canon _ _ _ (cover1_A_2 c i arg2 harg2 arg3 harg3 arg4 harg4 x0 x1), pieces_eq, View.canon_unit_zero zeros,
    trips_eq]
  show max (carried c i arg2 harg2 arg3 harg3 arg4 harg4 x0 x1 64 (ix2 p q)) zero = _
  rw [carried_final]

end Cert.KernelIdeal.Body1

end
-- ==== Proof.Region1.lean ====
/-
  From the second kernel's blocks to its whole result array.

  The second pallas_call runs over a 4 × 4 grid. At point `(bi, ji)` it stages columns `128·bi …` of the transposed
  hidden array `Ht : [1024, 512]` (all 1024 rows), columns `128·ji …` of the transposed weights `Wt : [1024, 512]`, and
  writes back block `(bi, ji)` of the result `[512, 512]`. By `Body1.out_apply` the block written holds, at `(p, q)`,
  the layer's entry of the two staged blocks, and entry `(r, p)` of a staged block is entry `(r, 128·bi + p)` of its
  array: so what the point writes back is block `(bi, ji)` of ONE whole-array function, the layer of `Ht` and `Wt`
  in its column form (`MaxPlus.colLayer`). The 16 blocks tile the result, so the array ends holding that function.
-/
import proofs.«162019_j32392643346992_2_alg».proof.Proof.Gen.KernelIdeal.Frame
import proofs.«162019_j32392643346992_2_alg».proof.Proof.Body1
import Idealize.ShloMosaic.Lib.Pipeline.Value

set_option maxRecDepth 16384

noncomputable section

namespace Cert.KernelIdeal.Region1

open Cert.KernelIdeal Cert.KernelIdeal.Gen Cert.MaxPlus
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- What the body leaves at an index `y` of the output block, for staged blocks holding `x0`, `x1`. -/
theorem out_at (c : Dev nD) (i : grid1.Coords) (arg2 : Memref sig .tc .vmem S1024x128 .f32) (harg2 : arg2.IsWhole)
    (arg3 : Memref sig .tc .vmem S1024x128 .f32) (harg3 : arg3.IsWhole) (arg4 : Memref sig .tc .vmem S128x128 .f32) (harg4 : arg4.IsWhole)
    (x0 x1 : Vec Ideal S1024x128 .f32) (y : S128x128.Idx) :
    out1_A_2 (F := Ideal) c i arg2 harg2 arg3 harg3 arg4 harg4 x0 x1 y
      = max ((Finset.univ : Finset (Fin 1024)).fold max ninf (fun k => x0 (ix2 k (y 0)) + x1 (ix2 k (y 1)))) zero := by
  obtain ⟨p, q, rfl⟩ : ∃ (p q : Fin 128), y = ix2 p q := ⟨y 0, y 1, eq_ix2 y⟩
  exact Body1.out_apply c i arg2 harg2 arg3 harg3 arg4 harg4 x0 x1 p q

/-- The printed index maps over the grid: the left operand's block is at block column `bi`, the weights' at block column
    `ji`, both at block row 0, and the result's block is `(bi, ji)`, inside the 4 × 4 blocks of the result. -/
theorem index_facts : ∀ t : Fin cfg1.N, win1_0.index t (0 : Fin 2) = 0
    ∧ win1_0.index t (1 : Fin 2) = win1_2.index t (0 : Fin 2)
    ∧ win1_1.index t (0 : Fin 2) = 0
    ∧ win1_1.index t (1 : Fin 2) = win1_2.index t (1 : Fin 2)
    ∧ win1_2.index t (0 : Fin 2) ≤ 3 ∧ win1_2.index t (1 : Fin 2) ≤ 3 :=
  (by decide +kernel : ∀ t : Fin grid1.N, _)

/-- Every block of the result is some point's. -/
theorem index_onto : ∀ (q0 : Fin 4) (q1 : Fin 4), ∃ t : Fin cfg1.N, win1_2.index t = ![q0.val, q1.val] :=
  (by decide +kernel : ∀ (q0 : Fin 4) (q1 : Fin 4), ∃ t : Fin grid1.N, win1_2.index t = ![q0.val, q1.val])

/-- WHAT POINT `t` WRITES BACK is block `t` of the layer of the two operand arrays as the region finds them. -/
theorem flushed_eq (c : Dev nD) (t : Fin cfg1.N) :
    (dat1 V c).flushed 2 t = ((cfg1.win 2).blk t).view.read (Elt Ideal)
      (colLayer (K := 1024) (B := 512) (J := 512) (V c main_v3) (V c main_v4)) := by
  show (cfg1.win 2).cut (grid1.coords t) ((dat1 V c).after 2 t) = _
  rw [after1_2]
  unfold outsAt1
  obtain ⟨e0, e1, e2, e3, e4, e5⟩ := index_facts t
  funext y
  refine (out_at c (grid1.coords t) (ms1_0 t) (hs1_0 t) (ms1_1 t) (hs1_1 t) (ms1_2 t) (hs1_2 t) (iblk1 V c 0 t) (iblk1 V c 1 t) y).trans ?_
  show _ = colLayerAt (K := 1024) (B := 512) (J := 512) (V c main_v3) (V c main_v4) ((((cfg1.win 2).blk t).view.emb y) 0) ((((cfg1.win 2).blk t).view.emb y) 1)
  unfold colLayerAt
  refine congrArg (fun z => max z zero) (congrArg (fun f => Finset.fold max ninf f (Finset.univ : Finset (Fin 1024))) (funext fun (k : Fin 1024) => ?_))
  have h0 : iblk1 V c 0 t (ix2 k (y 0)) = V c main_v3 (ix2 k ((((cfg1.win 2).blk t).view.emb y) 0)) := by
    show V c main_v3 (((cfg1.win 0).blk t).view.emb (ix2 k (y 0))) = _
    refine congrArg (V c main_v3) (funext fun a => Fin.ext ?_)
    match a with
    | ⟨0, _⟩ => show win1_0.index t (0 : Fin 2) * 1024 + 1 * k.val = k.val; omega
    | ⟨1, _⟩ => show win1_0.index t (1 : Fin 2) * 128 + 1 * (y 0).val = win1_2.index t (0 : Fin 2) * 128 + 1 * (y 0).val; omega
  have h1 : iblk1 V c 1 t (ix2 k (y 1)) = V c main_v4 (ix2 k ((((cfg1.win 2).blk t).view.emb y) 1)) := by
    show V c main_v4 (((cfg1.win 1).blk t).view.emb (ix2 k (y 1))) = _
    refine congrArg (V c main_v4) (funext fun a => Fin.ext ?_)
    match a with
    | ⟨0, _⟩ => show win1_1.index t (0 : Fin 2) * 1024 + 1 * k.val = k.val; omega
    | ⟨1, _⟩ => show win1_1.index t (1 : Fin 2) * 128 + 1 * (y 1).val = win1_2.index t (1 : Fin 2) * 128 + 1 * (y 1).val; omega
  rw [h0, h1]

/-- An index of the result is in point `t`'s block iff each coordinate is in the block's range on its axis. -/
theorem mem_block (t : Fin cfg1.N) (i : S512x512.Idx) :
    i ∈ ((cfg1.win 2).blk t).view.set ↔ ∀ a : Fin 2, win1_2.index t a * S128x128.size a ≤ (i a).val ∧ (i a).val < win1_2.index t a * S128x128.size a + S128x128.size a := by
  show i ∈ ((View.whole main_v5).slice (win1_2.rect t)).set ↔ _
  rw [View.set_slice_whole, Rect.mem_set_unit]
  exact Iff.rfl

/-- Every index of the result lies in some point's block: block `(i₀ / 128, i₁ / 128)`. -/
theorem covered (i : S512x512.Idx) : ∃ t : Fin cfg1.N, (cfg1.win 2).flush t = true ∧ i ∈ ((cfg1.win 2).blk t).view.set := by
  have hi0 : (i 0).val < 512 := (i 0).isLt
  have hi1 : (i 1).val < 512 := (i 1).isLt
  obtain ⟨t, ht⟩ := index_onto ⟨(i 0).val / 128, by omega⟩ ⟨(i 1).val / 128, by omega⟩
  have q0 : win1_2.index t (0 : Fin 2) = (i 0).val / 128 := congrFun ht 0
  have q1 : win1_2.index t (1 : Fin 2) = (i 1).val / 128 := congrFun ht 1
  refine ⟨t, flush1_2 t, ?_⟩
  rw [mem_block]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 128 ≤ (i 1).val ∧ (i 1).val < win1_2.index t (1 : Fin 2) * 128 + 128; omega

/-- THE RESULT ARRAY after the region: the layer of the two operand arrays as the region finds them. -/
theorem final (c : Dev nD) :
    (dat1 V c).arrAt 2 cfg1.N = colLayer (K := 1024) (B := 512) (J := 512) (V c main_v3) (V c main_v4) :=
  (dat1 V c).arrAt_eq_of_cover 2 _ (fun t _ => flushed_eq V c t) covered

end Cert.KernelIdeal.Region1

end
-- ==== Proof.KernelRun.lean ====
/-
  The idealized kernel's whole run, with its result buffer named.

  @main is four segments: two transposes on the host, the first pallas_call, two more transposes, the second
  pallas_call. Run from the launch memory, segment after segment, they leave every unscoped buffer of a core at the
  last boundary's contents (the generated `Gen.W4`: the launch memory folded through the host operations and the two
  regions' write-backs). Read at the result buffer and at the three arguments this says: every weakly fair execution
  ends with `main_v5` at `Gen.W4 … main_v5` and the arguments as launched. What `Gen.W4 … main_v5` IS, as a function
  of the arguments, is `Value.lean`.
-/
import proofs.«162019_j32392643346992_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the launch theorem's implicit arguments are found by unifying its conclusion with this statement, through plain
-- definitions in a metavariable's type)
set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Whole

end
-- ==== Proof.Value.lean ====
/-
  The idealized kernel's result as a function of its arguments.

  The first region finds the transposes of `x` and `W₁` (the host's two transposes before it) and leaves the layer of
  those in column form, which is the layer of `x` and `W₁`: the hidden array `h : [512, 1024]`. The second region finds
  the transposes of `h` and of `W₂` and leaves the layer of `h` and `W₂`. A transpose read at `(k, b)` is its operand at
  `(b, k)`; nothing else is used. Each boundary's contents are read one host operation at a time off the generated
  fold (`Gen.W1 … Gen.W4`), never unfolded as a whole.
-/
import proofs.«162019_j32392643346992_2_alg».proof.Proof.Gen.KernelIdeal.Frame
import proofs.«162019_j32392643346992_2_alg».proof.Proof.Region0
import proofs.«162019_j32392643346992_2_alg».proof.Proof.Region1
import proofs.«162019_j32392643346992_2_alg».proof.Proof.KernelRun
import Idealize.ShloMosaic.Lib.ValueLayout
import Idealize.ShloMosaic.Lib.StableHlo.Run

set_option maxRecDepth 16384

noncomputable section

namespace Cert.KernelIdeal.Whole

open Cert.KernelIdeal Cert.KernelIdeal.Gen Cert.MaxPlus
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The first region's left operand is the transpose of `x`: at `(k, b)` it holds `x[b, k]`. -/
theorem left0_apply (c : Dev nD) (k b : Fin 512) :
    V1 m ρ c main_v0 (ix2 k b) = m ((c : Thread nD τ).loc main_arg0) (ix2 b k) := by
  have e : (V1 m ρ c main_v0 : S512x512.Idx → EReal)
      = transpose S512x512 [1, 0] (m ((c : Thread nD τ).loc main_arg0)) transposes_S512x512_S512x512_1_0 := by
    show StableHlo.after hostOps0 (W0 m ρ c) (Proc.devRef .tc main_v0) = _
    after_results <;> rfl
  rw [e]
  exact transpose_ix2_apply _ _ k b

/-- The first region's weights are the transpose of `W₁`: at `(k, j)` they hold `W₁[j, k]`. -/
theorem weights0_apply (c : Dev nD) (k : Fin 512) (j : Fin 1024) :
    V1 m ρ c main_v1 (ix2 k j) = m ((c : Thread nD τ).loc main_arg1) (ix2 j k) := by
  have e : (V1 m ρ c main_v1 : S512x1024.Idx → EReal)
      = transpose S512x1024 [1, 0] (m ((c : Thread nD τ).loc main_arg1)) transposes_S1024x512_S512x1024_1_0 := by
    show StableHlo.after hostOps0 (W0 m ρ c) (Proc.devRef .tc main_v1) = _
    after_results <;> rfl
  rw [e]
  exact transpose_ix2_apply _ _ k j

/-- THE HIDDEN ARRAY: after the first region its result buffer holds the layer of `x` and `W₁`. -/
theorem hidden_eq (c : Dev nD) :
    (W2 m ρ c (Proc.devRef .tc main_v2) : S512x1024.Idx → EReal)
      = layer (B := 512) (J := 1024) (K := 512) (m ((c : Thread nD τ).loc main_arg0)) (m ((c : Thread nD τ).loc main_arg1)) :=
  (W2_arr m ρ c 2).trans ((Region0.final (V1 m ρ) c).trans
    (colLayer_eq_layer _ _ _ _ (left0_apply m ρ c) (weights0_apply m ρ c)))

/-- The second region's left operand is the transpose of the hidden array. -/
theorem left1_apply (c : Dev nD) (k : Fin 1024) (b : Fin 512) :
    V3 m ρ c main_v3 (ix2 k b)
      = layer (B := 512) (J := 1024) (K := 512) (m ((c : Thread nD τ).loc main_arg0)) (m ((c : Thread nD τ).loc main_arg1)) (ix2 b k) := by
  have e : (V3 m ρ c main_v3 : S1024x512.Idx → EReal)
      = transpose S1024x512 [1, 0] (W2 m ρ c (Proc.devRef .tc main_v2)) transposes_S512x1024_S1024x512_1_0 := by
    show StableHlo.after hostOps1 (W2 m ρ c) (Proc.devRef .tc main_v3) = _
    after_results <;> rfl
  rw [e, hidden_eq m ρ c]
  exact transpose_ix2_apply _ _ k b

/-- No host operation and no region before the second stretch writes `W₂`'s buffer. -/
theorem arg2_kept (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl

/-- The second region's weights are the transpose of `W₂`: at `(k, o)` they hold `W₂[o, k]`. -/
theorem weights1_apply (c : Dev nD) (k : Fin 1024) (o : Fin 512) :
    V3 m ρ c main_v4 (ix2 k o) = m ((c : Thread nD τ).loc main_arg2) (ix2 o k) := by
  have e : (V3 m ρ c main_v4 : S1024x512.Idx → EReal)
      = transpose S1024x512 [1, 0] (W2 m ρ c (Proc.devRef .tc main_arg2)) transposes_S512x1024_S1024x512_1_0 := by
    show StableHlo.after hostOps1 (W2 m ρ c) (Proc.devRef .tc main_v4) = _
    after_results <;> rfl
  rw [e, arg2_kept m ρ c]
  exact transpose_ix2_apply _ _ k o

/-- THE RESULT: after the second region the result buffer holds the two layers of the arguments. -/
theorem result_eq (c : Dev nD) :
    (W4 m ρ c (Proc.devRef .tc main_v5) : S512x512.Idx → EReal)
      = twoLayers (B := 512) (I := 512) (H := 1024) (O := 512) (m ((c : Thread nD τ).loc main_arg0)) (m ((c : Thread nD τ).loc main_arg1))
          (m ((c : Thread nD τ).loc main_arg2)) :=
  (W4_arr m ρ c 2).trans ((Region1.final (V3 m ρ) c).trans
    (colLayer_eq_layer _ _ _ _ (left1_apply m ρ c) (weights1_apply m ρ c)))

/-- THE KERNEL'S RUN: every weakly fair execution ends with the result at the two layers of the launch arguments, the
    arguments unchanged. -/
theorem run : θ_run defs (onTc (τ := τ) (main (F := Ideal))) ⟨m, fun _ => 0, ρ⟩ (fun r => ∀ c : Dev nD,
      r.2.mem ((c.tc : Thread nD τ).loc main_v5)
        = twoLayers (B := 512) (I := 512) (H := 1024) (O := 512) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.Whole

end
-- ==== Proof.LibHostLastMax.lean ====
/-
  GENERAL LEMMA: the host's reduce with a maximum body along the last axis of a rank-3 array — what
  `max(x, axis=2)` is in a host program — read at an index given by coordinates.
  • `hostReduce_maximumf_axis2_apply`: on the extended reals, the reduce of an `[a, b, c]` array along axis 2, at
    `(i, j)`, is the fold of `max` over the entries `(i, j, k)`, started from the initial value's one element.
-/
import Idealize.ShloMosaic.Lib.ValueIdx
import Idealize.ShloMosaic.PureOps.Ideal.Laws
import Idealize.ShloMosaic.PureOps.Reduce

noncomputable section

namespace Idealize.ShloMosaic.ValueIdx

open Idealize.ShloMosaic

/-- The host's maximum along axis 2 of an `[a, b, c]` array of extended reals: at `(i, j)` it is the fold of `max`,
    from the initial value, over the entries `(i, j, k)`. -/
theorem hostReduce_maximumf_axis2_apply {a b c : ℕ} (x : FVec Ideal ⟨3, ![a, b, c]⟩ .f32) (init : (⟨0, ![]⟩ : Shape).Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x _ h' h hu]
  refine congrArg (fun f => Finset.fold max (init (Shape.Idx.first hu)) f (Finset.univ : Finset (Fin c))) (funext fun k => congrArg x ?_)
  funext d
  match d with
  | ⟨0, _⟩ => exact Fin.ext rfl
  | ⟨1, _⟩ => exact Fin.ext rfl
  | ⟨2, _⟩ => exact Fin.ext rfl

end Idealize.ShloMosaic.ValueIdx

end
-- ==== Proof.RefValue.lean ====
/-
  The reference computes the two layers of its arguments.

  Its first layer broadcasts `x` to `[512, 1024, 512]` along a new middle axis and `W₁` along a new leading axis, adds,
  takes the maximum over the last axis from the word of `-∞`, and applies the ReLU as a maximum with a broadcast zero:
  at `(b, j)` the sum array is `x[b, k] + W₁[j, k]` at `k`, the reduction the fold of `max` over `k`, the result
  `MaxPlus.layerAt x W₁ b j`. The second layer does the same with the first's result and `W₂`. The broadcasts are read
  at an index by the generated stage lemmas, the reduction by the library's reading of a last-axis maximum as a fold.
-/
import proofs.«162019_j32392643346992_2_alg».proof.Proof.RefReadP
import proofs.«162019_j32392643346992_2_alg».proof.Proof.LibHostLastMax
import proofs.«162019_j32392643346992_2_alg».proof.Proof.MaxPlus

noncomputable section

namespace Cert.ReferenceIdeal.RefValue

open Cert.ReferenceIdeal Cert.ReferenceIdeal.Gen Cert.ReferenceIdeal.ReadP Cert.MaxPlus
open Idealize.ShloMosaic Idealize.ShloMosaic.TcCoe Idealize.ShloMosaic.ValueIdx Idealize.SL.Sem

variable (x0 : FVec Ideal S512x512 .f32) (x1 : FVec Ideal S1024x512 .f32) (x2 : FVec Ideal S512x1024 .f32)

/-- The first layer's sum array at `(b, j, k)`: `x[b, k] + W₁[j, k]`. -/
theorem sums1_apply (b : Fin 512) (j : Fin 1024) (k : Fin 512) :
    val_main_v4 (F := Ideal) x0 x1 (ix3 b j k) = x0 (ix2 b k) + x1 (ix2 j k) := by
  rw [val_main_v4_apply, val_main_v2_apply, val_main_v0_apply, val_main_v3_apply, val_main_v1_apply]
  have e0 : idx_main_v0 (idx_main_v2 (ix3 b j k)) = ix2 b k :=
    funext fun a => Fin.ext (by match a with | ⟨0, _⟩ => rfl | ⟨1, _⟩ => rfl)
  have e1 : idx_main_v1 (idx_main_v3 (ix3 b j k)) = ix2 j k :=
    funext fun a => Fin.ext (by match a with | ⟨0, _⟩ => rfl | ⟨1, _⟩ => rfl)
  rw [e0, e1]
  rfl

/-- The first layer's result at `(b, j)` is the layer's entry. -/
theorem hidden_apply (b : Fin 512) (j : Fin 1024) :
    val_main_v6 (F := Ideal) x0 x1 (ix2 b j) = layerAt (B := 512) (J := 1024) (K := 512) x0 x1 b j := by
  have h5 : val_main_v5 (F := Ideal) x0 x1 (ix2 b j)
      = (Finset.univ : Finset (Fin 512)).fold max ninf (fun k => x0 (ix2 b k) + x1 (ix2 j k)) := by
    unfold val_main_v5
    refine (hostReduce_maximumf_axis2_apply (a := 512) (b := 1024) (c := 512) (val_main_v4 (F := Ideal) x0 x1)
      (val_main_cst (F := Ideal)) reducesTo_S512x1024x512_S512x1024_d2 (by decide) h_S_ b j).trans ?_
    exact congrArg (fun f => Finset.fold max ninf f (Finset.univ : Finset (Fin 512))) (funext fun k => sums1_apply x0 x1 b j k)
  rw [val_main_v6_apply, h5, val_main_call0_v0_apply]
  rfl

/-- The second layer's sum array at `(b, o, k)`: `h[b, k] + W₂[o, k]`, `h` the first layer's result. -/
theorem sums2_apply (b o : Fin 512) (k : Fin 1024) :
    val_main_v11 (F := Ideal) x0 x1 x2 (ix3 b o k) = val_main_v6 (F := Ideal) x0 x1 (ix2 b k) + x2 (ix2 o k) := by
  rw [val_main_v11_apply, val_main_v9_apply, val_main_v7_apply, val_main_v10_apply, val_main_v8_apply]
  have e0 : idx_main_v7 (idx_main_v9 (ix3 b o k)) = ix2 b k :=
    funext fun a => Fin.ext (by match a with | ⟨0, _⟩ => rfl | ⟨1, _⟩ => rfl)
  have e1 : idx_main_v8 (idx_main_v10 (ix3 b o k)) = ix2 o k :=
    funext fun a => Fin.ext (by match a with | ⟨0, _⟩ => rfl | ⟨1, _⟩ => rfl)
  rw [e0, e1]
  rfl

/-- The reference's result at `(b, o)` is the second layer's entry of the first layer's result and `W₂`. -/
theorem out_apply (b o : Fin 512) :
    val_main_v13 (F := Ideal) x0 x1 x2 (ix2 b o)
      = layerAt (B := 512) (J := 512) (K := 1024) (layer (B := 512) (J := 1024) (K := 512) x0 x1) x2 b o := by
  have h12 : val_main_v12 (F := Ideal) x0 x1 x2 (ix2 b o)
      = (Finset.univ : Finset (Fin 1024)).fold max ninf
          (fun k => layer (B := 512) (J := 1024) (K := 512) x0 x1 (ix2 b k) + x2 (ix2 o k)) := by
    unfold val_main_v12
    refine (hostReduce_maximumf_axis2_apply (a := 512) (b := 512) (c := 1024) (val_main_v11 (F := Ideal) x0 x1 x2)
      (val_main_cst_0 (F := Ideal)) reducesTo_S512x512x1024_S512x512_d2 (by decide) h_S_ b o).trans ?_
    exact congrArg (fun f => Finset.fold max ninf f (Finset.univ : Finset (Fin 1024)))
      (funext fun k => (sums2_apply x0 x1 x2 b o k).trans (congrArg (· + x2 (ix2 o k)) (hidden_apply x0 x1 b k)))
  rw [val_main_v13_apply, h12, val_main_call1_v0_apply]
  rfl

/-- THE REFERENCE'S RESULT is the two layers of its arguments. -/
theorem result_eq : val_main_v13 (F := Ideal) x0 x1 x2 = twoLayers (B := 512) (I := 512) (H := 1024) (O := 512) x0 x1 x2 := by
  funext i
  obtain ⟨b, o, rfl⟩ : ∃ (b o : Fin 512), i = ix2 b o := ⟨i 0, i 1, eq_ix2 i⟩
  exact out_apply x0 x1 x2 b o

/-- THE REFERENCE'S RUN: every weakly fair execution ends with the result at the two layers of the launch arguments,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13)
        = twoLayers (B := 512) (I := 512) (H := 1024) (O := 512) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((val_main_v13_eq _ _ _).trans (result_eq _ _ _)), (h c).2⟩)
    (Cert.ReferenceIdeal.ValueP.run (F := Ideal) m ρ)

end Cert.ReferenceIdeal.RefValue

end
-- ==== Proof.lean ====
/-
  The certificate of a two-layer max-plus network (MorphoMLP): a Pallas kernel per layer against a jnp reference.

  A layer maps `X : [B, K]` and `W : [J, K]` to `out[b, j] = max ( max_k ( X[b, k] + W[j, k] ) , 0 )` — a matrix product
  over the (max, +) semiring followed by a ReLU. The kernel program transposes both operands on the host, so that the
  reduction axis leads, and runs one pallas_call per layer over 128 × 128 blocks of the result; inside a block the
  reduction axis is walked sixteen rows at a time by a counted loop carrying a running maximum. The reference
  broadcasts both operands to a rank-3 array, adds, and reduces the last axis with a maximum.

  On the extended reals the two agree for ALL argument contents: a fold of `max` over an axis does not depend on how
  the axis is cut into chunks, nor on the chunks' folds each starting again from the same start value, because `max`
  is associative, commutative and idempotent (`MaxPlus.fold_chunks`). Finiteness of the inputs is never used, and the
  start value `-∞` and the threshold `0` are the same words on both sides, never evaluated.

  • `MaxPlus`: the layer as a function on the extended reals, and the chunking law.
  • `Chunk`, `Body0`, `Body1`: one loop step at an entry; what a grid point leaves in its block.
  • `Region0`, `Region1`: the blocks tile the result, which ends holding the layer of the operands the region finds.
  • `KernelRun`, `Value`: the kernel program's run with its result at the two layers of the arguments.
  • `RefRunP`, `RefReadP`, `RefValue`: the reference's run, its result the same function.
  The three frames: the two kernel programs' are the generated frame certificates; the reference's is its run with the
  result dropped. `preserves` is trivial: the idealization rewrote nothing.
-/
import proofs.«162019_j32392643346992_2_alg».proof.Defs
import proofs.«162019_j32392643346992_2_alg».proof.Proof.Gen.Kernel
import proofs.«162019_j32392643346992_2_alg».proof.Proof.Gen.Kernel.Frame
import proofs.«162019_j32392643346992_2_alg».proof.Proof.Gen.KernelIdeal
import proofs.«162019_j32392643346992_2_alg».proof.Proof.Gen.KernelIdeal.Frame
import proofs.«162019_j32392643346992_2_alg».proof.Proof.Gen.ReferenceIdeal
import proofs.«162019_j32392643346992_2_alg».proof.Proof.Gen.Pre_finite_inputs
import proofs.«162019_j32392643346992_2_alg».proof.Proof.Value
import proofs.«162019_j32392643346992_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with their result at the two layers of the launch arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
